-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x1024 : Shape := ⟨4, ![16, 3, 512, 1024]⟩
abbrev S_ : Shape := ⟨0, ![]⟩

class Facts : Prop where
  bcast_S_S16x3x512x1024 : S_.BroadcastsInDim S16x3x512x1024 (![] : Fin 0 → Fin S16x3x512x1024.rank)
  reducesTo_S16x3x512x1024_S_d0_1_2_3 : S16x3x512x1024.ReducesTo [0, 1, 2, 3] S_
  h_S_ : 0 < S_.numel

variable [Facts]

def fn {F : FTy → Type} [FloatOps F] (main_arg0 : FVec F S16x3x512x1024 .f32) (main_arg1 : FVec F S16x3x512x1024 .f32) : IVec S_ 1 :=
  let main_v0 : FVec F S16x3x512x1024 .f32 := Host.absf main_arg0
  let main_cst : FVec F S_ .f32 := constant S_ .f32 0x7F800000#32
  let main_v1 : FVec F S16x3x512x1024 .f32 := broadcastInDim S16x3x512x1024 ![] bcast_S_S16x3x512x1024 main_cst
  let main_v2 : IVec S16x3x512x1024 1 := cmpf .olt main_v0 main_v1
  let main_c : IVec S_ 1 := constantI S_ 1 1#1
  let main_v3 : IVec S_ 1 := (fun x v => Host.reduce IntOp.andi x v reducesTo_S16x3x512x1024_S_d0_1_2_3 h_S_) main_v2 main_c
  let main_v4 : FVec F S16x3x512x1024 .f32 := Host.absf main_arg1
  let main_cst_0 : FVec F S_ .f32 := constant S_ .f32 0x7F800000#32
  let main_v5 : FVec F S16x3x512x1024 .f32 := broadcastInDim S16x3x512x1024 ![] bcast_S_S16x3x512x1024 main_cst_0
  let main_v6 : IVec S16x3x512x1024 1 := cmpf .olt main_v4 main_v5
  let main_c_1 : IVec S_ 1 := constantI S_ 1 1#1
  let main_v7 : IVec S_ 1 := (fun x v => Host.reduce IntOp.andi x v reducesTo_S16x3x512x1024_S_d0_1_2_3 h_S_) main_v6 main_c_1
  let main_v8 : IVec S_ 1 := andi main_v3 main_v7
  main_v8
-- ==== Kernel.lean ====
abbrev S16x3x512x1024 : Shape := ⟨4, ![16, 3, 512, 1024]⟩
abbrev S48x512x1024 : Shape := ⟨3, ![48, 512, 1024]⟩
abbrev S48x512x2048 : Shape := ⟨3, ![48, 512, 2048]⟩
abbrev S1x512x1024 : Shape := ⟨3, ![1, 512, 1024]⟩
abbrev S1x512x2048 : Shape := ⟨3, ![1, 512, 2048]⟩
abbrev S512x1024 : Shape := ⟨2, ![512, 1024]⟩
abbrev S16x3x1024x1024 : Shape := ⟨4, ![16, 3, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16x3x512x1024, .f32⟩
  | .hbm, ⟨1, _⟩ => ⟨S16x3x512x1024, .f32⟩
  | .hbm, ⟨2, _⟩ => ⟨S48x512x1024, .f32⟩
  | .hbm, ⟨3, _⟩ => ⟨S48x512x1024, .f32⟩
  | .hbm, ⟨4, _⟩ => ⟨S48x512x2048, .f32⟩
  | .hbm, ⟨5, _⟩ => ⟨S16x3x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x2048, .f32⟩
  | .local _ .vmem, ⟨5, _⟩ => ⟨S1x512x2048, .f32⟩
  | _, _ => ⟨S16x3x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x3x512x1024_S48x512x1024 : S16x3x512x1024.ShapeCasts S48x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x2048_S1x512x1024_0_0_0 : ∀ a, (![0, 0, 0] : Fin 3 → Nat) a + S1x512x1024.size a ≤ S1x512x2048.size a
  shapeCasts_S512x1024_S1x512x1024 : S512x1024.ShapeCasts S1x512x1024
  inb_S1x512x2048_S1x512x1024_0_0_1024 : ∀ a, (![0, 0, 1024] : Fin 3 → Nat) a + S1x512x1024.size a ≤ S1x512x2048.size a
  shapeCasts_S48x512x2048_S16x3x1024x1024 : S48x512x2048.ShapeCasts S16x3x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S48x512x1024.size a
  hwx0_0 : ∀ i : grid0.Coords, EltTy.bits .f32 = 32 ∨ (Rect.block (s := S48x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S48x512x1024.size a
  hwx0_1 : ∀ i : grid0.Coords, EltTy.bits .f32 = 32 ∨ (Rect.block (s := S48x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S48x512x2048.size a
  hwx0_2 : ∀ i : grid0.Coords, EltTy.bits .f32 = 32 ∨ (Rect.block (s := S48x512x2048) S1x512x2048.size (cc0_transform_2 i) (hinb0_2 i)).WholeWords (EltTy.packing .f32)

variable [Facts₀]

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x512x1024 : Shape := ⟨4, ![16, 3, 512, 1024]⟩
abbrev S_ : Shape := ⟨0, ![]⟩
abbrev S16x3x512x1x1024 : Shape := ⟨5, ![16, 3, 512, 1, 1024]⟩
abbrev S16x3x512x2x1024 : Shape := ⟨5, ![16, 3, 512, 2, 1024]⟩
abbrev S16x3x1024x1024 : Shape := ⟨4, ![16, 3, 1024, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x3x512x1024, .f32⟩
  | .hbm, ⟨1, _⟩ => ⟨S16x3x512x1024, .f32⟩
  | .hbm, ⟨2, _⟩ => ⟨S16x3x512x1024, .f32⟩
  | .hbm, ⟨3, _⟩ => ⟨S16x3x512x1024, .f32⟩
  | .hbm, ⟨4, _⟩ => ⟨S_, .f32⟩
  | .hbm, ⟨5, _⟩ => ⟨S16x3x512x1024, .f32⟩
  | .hbm, ⟨6, _⟩ => ⟨S16x3x512x1024, .f32⟩
  | .hbm, ⟨7, _⟩ => ⟨S_, .f32⟩
  | .hbm, ⟨8, _⟩ => ⟨S16x3x512x1024, .f32⟩
  | .hbm, ⟨9, _⟩ => ⟨S16x3x512x1024, .f32⟩
  | .hbm, ⟨10, _⟩ => ⟨S16x3x512x1024, .f32⟩
  | .hbm, ⟨11, _⟩ => ⟨S_, .f32⟩
  | .hbm, ⟨12, _⟩ => ⟨S16x3x512x1024, .f32⟩
  | .hbm, ⟨13, _⟩ => ⟨S16x3x512x1024, .f32⟩
  | .hbm, ⟨14, _⟩ => ⟨S_, .f32⟩
  | .hbm, ⟨15, _⟩ => ⟨S16x3x512x1024, .f32⟩
  | .hbm, ⟨16, _⟩ => ⟨S16x3x512x1024, .f32⟩
  | .hbm, ⟨17, _⟩ => ⟨S16x3x512x1024, .f32⟩
  | .hbm, ⟨18, _⟩ => ⟨S16x3x512x1x1024, .f32⟩
  | .hbm, ⟨19, _⟩ => ⟨S16x3x512x1x1024, .f32⟩
  | .hbm, ⟨20, _⟩ => ⟨S16x3x512x2x1024, .f32⟩
  | .hbm, ⟨21, _⟩ => ⟨S16x3x1024x1024, .f32⟩
  | _, _ => ⟨S16x3x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S16x3x512x1024 : S_.BroadcastsInDim S16x3x512x1024 (![] : Fin 0 → Fin S16x3x512x1024.rank)
  bcast_S16x3x512x1024_S16x3x512x1x1024_0_1_2_4 : S16x3x512x1024.BroadcastsInDim S16x3x512x1x1024 (![0, 1, 2, 4] : Fin 4 → Fin S16x3x512x1x1024.rank)
  concatenates_S16x3x512x1x1024_S16x3x512x1x1024_S16x3x512x2x1024_d3 : Shape.Concatenates [S16x3x512x1x1024, S16x3x512x1x1024] S16x3x512x2x1024 3
  shapeCasts_S16x3x512x2x1024_S16x3x1024x1024 : S16x3x512x2x1024.ShapeCasts S16x3x1024x1024

variable [Facts₀]

class Facts : Prop extends Facts₀ where

variable [Facts]
-- ==== Proof.HalfLiterals.lean ====
/-
  The two float literals the programs spell, as the extended reals they denote: the word 0x3F000000 is one half and
  the word 0xBF000000 is minus one half, so the second is the negation of the first. The kernel subtracts half a
  difference where the reference adds minus-half of it; this is the only fact about the literals the comparison needs.
-/
import Idealize.ShloMosaic.PureOps.Ideal

noncomputable section

namespace Cert.HaarLiterals

open Idealize.ShloMosaic

/-- The word 0x3F000000 denotes the real number 1/2. -/
theorem ofBits_half : Ideal.ofBits .f32 0x3F000000#32 = ((1 / 2 : ℝ) : EReal) := by
  simp [Ideal.ofBits, Ideal.ieee, -EReal.coe_mul]; norm_num

/-- The word 0xBF000000 denotes the real number -(1/2). -/
theorem ofBits_neg_half : Ideal.ofBits .f32 0xBF000000#32 = ((-(1 / 2) : ℝ) : EReal) := by
  simp [Ideal.ofBits, Ideal.ieee, -EReal.coe_mul]; norm_num

/-- Minus one half is the negation of one half, as extended reals. -/
theorem neg_half_eq_neg : Ideal.ofBits .f32 0xBF000000#32 = -Ideal.ofBits .f32 0x3F000000#32 := by
  rw [ofBits_half, ofBits_neg_half]; exact EReal.coe_neg _

end Cert.HaarLiterals

end
-- ==== Proof.Interleave.lean ====
/-
  The specification both programs meet. Write x and y for the two inputs, of shape [16, 3, 512, 1024]. With
  s = x + y and d = x - y taken entry by entry, the result of shape [16, 3, 1024, 1024] holds in row 2h the entry
  (1/2) s + (1/2) d of row h, and in row 2h + 1 the entry (1/2) s - (1/2) d of row h: the rows of the two
  combinations interleaved. The one algebraic law used is that subtracting (1/2) d is adding (-(1/2)) d, which holds
  for every extended real d (negation passes through a product, and a difference is a sum with the negation), so no
  finiteness of the inputs is needed.
-/
import Idealize.ShloMosaic.PureOps.Ideal
import Idealize.ShloMosaic.Lib.ValueIdx
import proofs.«165841_j9732395893262_2_alg».proof.Proof.HalfLiterals

noncomputable section

namespace Cert.HaarSpec

open Idealize.ShloMosaic Idealize.ShloMosaic.ValueIdx

/-- One half, spelt as the programs spell it. -/
abbrev half : EReal := Ideal.ofBits .f32 0x3F000000#32

/-- The entry of an even row (parity 0) or an odd row (any other parity) from the two input entries a and b:
    (1/2)(a + b) + (1/2)(a - b), or (1/2)(a + b) - (1/2)(a - b). -/
def rowPair (p : Nat) (a b : EReal) : EReal :=
  if p = 0 then half * (a + b) + half * (a - b) else half * (a + b) - half * (a - b)

theorem rowPair_even (a b : EReal) : rowPair 0 a b = half * (a + b) + half * (a - b) := if_pos rfl

theorem rowPair_odd (a b : EReal) : rowPair 1 a b = half * (a + b) - half * (a - b) := if_neg (by decide)

/-- Subtracting half of d is adding minus-half of d, for every extended real. -/
theorem sub_half_eq_add_neg_half (s d : EReal) :
    half * s - half * d = half * s + Ideal.ofBits .f32 0xBF000000#32 * d := by
  rw [Cert.HaarLiterals.neg_half_eq_neg, EReal.neg_mul, sub_eq_add_neg]

/-- The inputs' shape and the result's. -/
abbrev SIn : Shape := ⟨4, ![16, 3, 512, 1024]⟩
abbrev SOut : Shape := ⟨4, ![16, 3, 1024, 1024]⟩

/-- The input entry a result entry depends on: the same batch, channel and column, and half the row. -/
def srcIdx (i : SOut.Idx) : SIn.Idx :=
  ix4 (n0 := 16) (n1 := 3) (n2 := 512) (n3 := 1024) (i 0) (i 1)
    ⟨(i 2).val / 2, by have h : (i 2).val < 1024 := (i 2).isLt; omega⟩ (i 3)

/-- The interleaved result as one function of the two input arrays, entry by entry. -/
def interleaved (x y : SIn.Idx → EReal) : SOut.Idx → EReal := fun i =>
  rowPair ((i 2).val % 2) (x (srcIdx i)) (y (srcIdx i))

end Cert.HaarSpec

end
-- ==== Proof.KernelBlock.lean ====
/-
  What the kernel body leaves in its [1, 512, 2048] output block, as one function of the block index. The body loads
  the two [1, 512, 1024] input blocks x and y whole, forms s = x + y and d = x - y, and makes two stores: the even
  combination (1/2) s + (1/2) d into columns 0 to 1023 and the odd combination (1/2) s - (1/2) d into columns 1024 to
  2047. So entry (0, h, c) of the block is the combination of parity c / 1024 of the input entries at (0, h, c % 1024).
  The casts between [1, 512, 1024] and [512, 1024] only drop and restore the leading unit coordinate.
-/
import proofs.«165841_j9732395893262_2_alg».proof.Proof.Gen.KernelIdeal.Frame
import proofs.«165841_j9732395893262_2_alg».proof.Proof.Interleave
import Idealize.ShloMosaic.Lib.Pipeline.Value
import Idealize.ShloMosaic.Lib.ValueIdx

set_option maxRecDepth 16384

noncomputable section

namespace Cert.KernelIdeal.BlockValue

open Cert.KernelIdeal Cert.KernelIdeal.Gen
open Idealize.ShloMosaic Idealize.ShloMosaic.ValueIdx Cert.HaarSpec

/-- Adding the leading unit axis: entry (0, h, c) of the [1, 512, 1024] view is entry (h, c) of the [512, 1024] value
    (the two have the same row-major position, the leading coordinate being zero). -/
theorem addUnit_apply (v : S512x1024.Idx → EReal) (h : S512x1024.ShapeCasts S1x512x1024) (y : S1x512x1024.Idx) :
    shapeCast S1x512x1024 v h y = v (ix2 (y 1) (y 2)) := by
  refine shapeCast_apply v h y (ix2 (y 1) (y 2)) ?_
  rw [Shape.rowMajor_val_two, Shape.rowMajor_val_three]
  have h0 : (y 0).val < 1 := (y 0).isLt
  show (y 1).val * 1024 + (y 2).val = ((y 0).val * 512 + (y 1).val) * 1024 + (y 2).val
  omega

/-- Dropping the leading unit axis: entry (h, c) of the [512, 1024] view of a block is the block's entry (0, h, c). -/
theorem dropUnit_apply (v : S1x512x1024.Idx → EReal) (h : S1x512x1024.ShapeCasts S512x1024) (y : S1x512x1024.Idx) :
    shapeCast S512x1024 v h (ix2 (y 1) (y 2)) = v y := by
  refine shapeCast_apply v h (ix2 (y 1) (y 2)) y ?_
  rw [Shape.rowMajor_val_two, Shape.rowMajor_val_three]
  have h0 : (y 0).val < 1 := (y 0).isLt
  show ((y 0).val * 512 + (y 1).val) * 1024 + (y 2).val = (y 1).val * 1024 + (y 2).val
  omega

/-- The even combination's payload at an index of the block. -/
theorem pay_even_apply (x0 x1 : Vec Ideal S1x512x1024 .f32) (y : S1x512x1024.Idx) :
    k0_pay5 (F := Ideal) x0 x1 y = half * (x0 y + x1 y) + half * (x0 y - x1 y) := by
  unfold k0_pay5 k0_pay3 k0_pay4 k0_pay1 k0_pay2
  refine (addUnit_apply _ _ y).trans ?_
  simp only [addf_apply, subf_apply, mulf_apply, broadcast_apply, dropUnit_apply]
  rfl

/-- The odd combination's payload at an index of the block. -/
theorem pay_odd_apply (x0 x1 : Vec Ideal S1x512x1024 .f32) (y : S1x512x1024.Idx) :
    k0_pay6 (F := Ideal) x0 x1 y = half * (x0 y + x1 y) - half * (x0 y - x1 y) := by
  unfold k0_pay6 k0_pay3 k0_pay4 k0_pay1 k0_pay2
  refine (addUnit_apply _ _ y).trans ?_
  simp only [addf_apply, subf_apply, mulf_apply, broadcast_apply, dropUnit_apply]
  rfl

/-- The input-block entry behind an output-block entry: the same row, the column modulo 1024. -/
def colIdx (y : S1x512x2048.Idx) : S1x512x1024.Idx :=
  ix3 (y 0) (y 1) ⟨(y 2).val % 1024, Nat.mod_lt _ (by decide)⟩

/-- The output block as one function of the two input blocks. -/
def blockFn (x0 x1 : S1x512x1024.Idx → EReal) : S1x512x2048.Idx → EReal := fun y =>
  rowPair ((y 2).val / 1024) (x0 (colIdx y)) (x1 (colIdx y))

theorem hz3 : (![0, 0, 0] : Fin 3 → Nat) = fun _ => 0 := funext fun a => by fin_cases a <;> rfl

/-- What the body leaves in the output block is that function of the input blocks. -/
theorem out_block_eq (x0 x1 : Vec Ideal S1x512x1024 .f32) : out0_2 (F := Ideal) x0 x1 = blockFn x0 x1 := by
  funext y
  unfold out0_2
  simp only [View.ld_unit_zero (S := S1x512x1024) hz3]
  refine View.canon_apply_of_pieces (Val := Elt Ideal) (blockFn x0 x1) _ ?_ y (cover0_2 _ _ y)
  intro p hp x
  simp only [List.mem_cons, List.mem_nil_iff, or_false] at hp
  rcases hp with rfl | rfl
  · -- the later store: columns 1024 to 2047 hold the odd combination
    show k0_pay6 x0 x1 x = blockFn x0 x1 (r0_2.emb x)
    have hx : (x 2).val < 1024 := (x 2).isLt
    have e2 : ((r0_2.emb x) 2).val = 1024 + 1 * (x 2).val := rfl
    have hc : colIdx (r0_2.emb x) = x := by
      funext a; apply Fin.ext
      match a with
      | ⟨0, _⟩ => show 0 + 1 * (x 0).val = (x 0).val; omega
      | ⟨1, _⟩ => show 0 + 1 * (x 1).val = (x 1).val; omega
      | ⟨2, _⟩ => show (1024 + 1 * (x 2).val) % 1024 = (x 2).val; omega
    unfold blockFn
    rw [hc, pay_odd_apply, e2, show (1024 + 1 * (x 2).val) / 1024 = 1 by omega, rowPair_odd]
  · -- the earlier store: columns 0 to 1023 hold the even combination
    show k0_pay5 x0 x1 x = blockFn x0 x1 (r0_1.emb x)
    have hx : (x 2).val < 1024 := (x 2).isLt
    have e2 : ((r0_1.emb x) 2).val = 0 + 1 * (x 2).val := rfl
    have hc : colIdx (r0_1.emb x) = x := by
      funext a; apply Fin.ext
      match a with
      | ⟨0, _⟩ => show 0 + 1 * (x 0).val = (x 0).val; omega
      | ⟨1, _⟩ => show 0 + 1 * (x 1).val = (x 1).val; omega
      | ⟨2, _⟩ => show (0 + 1 * (x 2).val) % 1024 = (x 2).val; omega
    unfold blockFn
    rw [hc, pay_even_apply, e2, show (0 + 1 * (x 2).val) / 1024 = 0 by omega, rowPair_even]

end Cert.KernelIdeal.BlockValue

end
-- ==== Proof.Relayout.lean ====
/-
  The kernel's array before its last reshape, and the reshape. The kernel fills a [48, 512, 2048] array: slice n, row h
  holds the even combination of the inputs' row h in columns 0 to 1023 and the odd combination in columns 1024 to
  2047, the inputs read as [48, 512, 1024] arrays. Reshaping [48, 512, 2048] to [16, 3, 1024, 1024] keeps row-major
  positions, so entry (b, c, r, w) of the result is entry (3 b + c, r / 2, 1024 (r % 2) + w) of that array: the
  parity of the row chooses the half of the columns, and the column within the half is w. Reading the inputs back
  through their own reshape from [16, 3, 512, 1024], entry (3 b + c, r / 2, w) is their entry (b, c, r / 2, w). So the
  reshaped array is the interleaved specification of the inputs.
-/
import proofs.«165841_j9732395893262_2_alg».proof.Proof.Interleave
import Idealize.ShloMosaic.Lib.Pipeline.Value
import Idealize.ShloMosaic.Lib.ValueIdx

noncomputable section

namespace Cert.HaarRelayout

open Idealize.ShloMosaic Idealize.ShloMosaic.ValueIdx Cert.HaarSpec

/-- The inputs as the kernel's call sees them, and the array it fills. -/
abbrev SFlat : Shape := ⟨3, ![48, 512, 1024]⟩
abbrev SWide : Shape := ⟨3, ![48, 512, 2048]⟩

/-- The input entry behind an entry of the filled array: the same slice and row, the column modulo 1024. -/
def halfCol (j : SWide.Idx) : SFlat.Idx :=
  ix3 (n0 := 48) (n1 := 512) (n2 := 1024) (j 0) (j 1) ⟨(j 2).val % 1024, Nat.mod_lt _ (by decide)⟩

/-- The filled array as one function of the two flattened inputs: the combination whose parity is the half of the
    columns the entry lies in. -/
def sideBySide (a0 a1 : SFlat.Idx → EReal) : SWide.Idx → EReal := fun j =>
  rowPair ((j 2).val / 1024) (a0 (halfCol j)) (a1 (halfCol j))

/-- Reshaping the side-by-side array of the flattened inputs gives the interleaved specification. -/
theorem reshape_sideBySide (x0 x1 : SIn.Idx → EReal) (hin : SIn.ShapeCasts SFlat) (hout : SWide.ShapeCasts SOut) :
    shapeCast SOut (sideBySide (shapeCast SFlat x0 hin) (shapeCast SFlat x1 hin)) hout = interleaved x0 x1 := by
  funext i
  have h0 : (i 0).val < 16 := (i 0).isLt
  have h1 : (i 1).val < 3 := (i 1).isLt
  have h2 : (i 2).val < 1024 := (i 2).isLt
  have h3 : (i 3).val < 1024 := (i 3).isLt
  -- the entry of the filled array at the same row-major position
  refine (shapeCast_apply _ hout i
    (ix3 (n0 := 48) (n1 := 512) (n2 := 2048) ⟨(i 0).val * 3 + (i 1).val, by omega⟩ ⟨(i 2).val / 2, by omega⟩
      ⟨(i 2).val % 2 * 1024 + (i 3).val, by omega⟩) ?_).trans ?_
  · rw [Shape.rowMajor_val_three, Shape.rowMajor_val_four]
    show (((i 0).val * 3 + (i 1).val) * 512 + (i 2).val / 2) * 2048 + ((i 2).val % 2 * 1024 + (i 3).val)
      = (((i 0).val * 3 + (i 1).val) * 1024 + (i 2).val) * 1024 + (i 3).val
    omega
  · unfold sideBySide interleaved
    have hp : ((i 2).val % 2 * 1024 + (i 3).val) / 1024 = (i 2).val % 2 := by omega
    have hq : halfCol (ix3 (n0 := 48) (n1 := 512) (n2 := 2048) ⟨(i 0).val * 3 + (i 1).val, by omega⟩
        ⟨(i 2).val / 2, by omega⟩ ⟨(i 2).val % 2 * 1024 + (i 3).val, by omega⟩)
        = ix3 (n0 := 48) (n1 := 512) (n2 := 1024) ⟨(i 0).val * 3 + (i 1).val, by omega⟩ ⟨(i 2).val / 2, by omega⟩
            (i 3) := by
      funext a; apply Fin.ext
      match a with
      | ⟨0, _⟩ => rfl
      | ⟨1, _⟩ => rfl
      | ⟨2, _⟩ => show ((i 2).val % 2 * 1024 + (i 3).val) % 1024 = (i 3).val; omega
    -- each flattened input at that entry is the input at the source entry
    have hsrc : ∀ x : SIn.Idx → EReal, shapeCast SFlat x hin
        (ix3 (n0 := 48) (n1 := 512) (n2 := 1024) ⟨(i 0).val * 3 + (i 1).val, by omega⟩ ⟨(i 2).val / 2, by omega⟩
          (i 3))
        = x (srcIdx i) := fun x => by
      refine shapeCast_apply x hin _ (srcIdx i) ?_
      rw [Shape.rowMajor_val_three, Shape.rowMajor_val_four]
      rfl
    show rowPair (((i 2).val % 2 * 1024 + (i 3).val) / 1024) _ _ = _
    rw [hp, hq, hsrc, hsrc]

end Cert.HaarRelayout

end
-- ==== Proof.KernelArray.lean ====
/-
  The kernel's [48, 512, 2048] array after its call. Grid point t works on slice t: its two input blocks are slices
  t of the flattened inputs and its output block is slice t of the array, whole rows and whole columns (all three
  index maps send t to block (t, 0, 0)). The body leaves in the output block the side-by-side combinations of the
  input blocks, so what point t writes back is slice t of the side-by-side array of the flattened inputs. The 48
  slices cover the array (the point covering an entry is its slice number), hence after the call the array IS the
  side-by-side array. The flattened inputs are the arguments reshaped from [16, 3, 512, 1024] to [48, 512, 1024].
-/
import proofs.«165841_j9732395893262_2_alg».proof.Proof.Gen.KernelIdeal.Frame
import proofs.«165841_j9732395893262_2_alg».proof.Proof.KernelBlock
import proofs.«165841_j9732395893262_2_alg».proof.Proof.Relayout
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.BlockValue
open Idealize.ShloMosaic Idealize.ShloMosaic.TcCoe Idealize.SL.Sem Idealize.ShloMosaic.StableHlo
open Idealize.ShloMosaic.Pipeline (Dat)
open Idealize.ShloMosaic.ValueIdx Cert.HaarSpec Cert.HaarRelayout

variable (m : (ℓ : Loc nD τ sig) → Buf (Elt Ideal) ℓ) (ρ : Dev nD → PrngReg)

/-- The three index maps, decided over the 48 grid points: each sends point t to block (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What grid point t writes back is slice t of the side-by-side array of the flattened inputs. -/
theorem flushed_eq (c : Dev nD) (t : Fin cfg0.N) :
    (dats m 0 c).flushed 2 t
      = ((cfg0.win 2).blk t).view.read (Elt Ideal) (sideBySide (V m c main_v0) (V m c main_v1)) := by
  show (cfg0.win 2).cut (grid0.coords t) ((dats m 0 c).after 2 t) = _
  rw [after0_2, out_block_eq]
  obtain ⟨a0, a1, a2, b0, b1, b2, c0, c1, c2⟩ := idx_facts t
  funext y
  show blockFn (iblk m c 0 t) (iblk m c 1 t) y
    = sideBySide (V m c main_v0) (V m c main_v1) (((cfg0.win 2).blk t).view.emb y)
  have hy0 : (y 0).val < 1 := (y 0).isLt
  have hy1 : (y 1).val < 512 := (y 1).isLt
  have hy2 : (y 2).val < 2048 := (y 2).isLt
  -- the half of the columns is the same seen from the block and from the array
  have hp : ((((cfg0.win 2).blk t).view.emb y) 2).val / 1024 = (y 2).val / 1024 := by
    show (win0_2.index t (2 : Fin 3) * 2048 + 1 * (y 2).val) / 1024 = (y 2).val / 1024
    rw [c2]; omega
  -- each input block's entry is the flattened input's entry behind the array entry
  have h0 : iblk m c 0 t (colIdx y) = V m c main_v0 (halfCol (((cfg0.win 2).blk t).view.emb y)) := by
    show V m c main_v0 (((cfg0.win 0).blk t).view.emb (colIdx y)) = _
    refine congrArg _ (funext fun a => Fin.ext ?_)
    match a with
    | ⟨0, _⟩ =>
      show win0_0.index t (0 : Fin 3) * 1 + 1 * (y 0).val = win0_2.index t (0 : Fin 3) * 1 + 1 * (y 0).val
      omega
    | ⟨1, _⟩ =>
      show win0_0.index t (1 : Fin 3) * 512 + 1 * (y 1).val = win0_2.index t (1 : Fin 3) * 512 + 1 * (y 1).val
      omega
    | ⟨2, _⟩ =>
      show win0_0.index t (2 : Fin 3) * 1024 + 1 * ((y 2).val % 1024)
        = (win0_2.index t (2 : Fin 3) * 2048 + 1 * (y 2).val) % 1024
      omega
  have h1 : iblk m c 1 t (colIdx y) = V m c main_v1 (halfCol (((cfg0.win 2).blk t).view.emb y)) := by
    show V m c main_v1 (((cfg0.win 1).blk t).view.emb (colIdx y)) = _
    refine congrArg _ (funext fun a => Fin.ext ?_)
    match a with
    | ⟨0, _⟩ =>
      show win0_1.index t (0 : Fin 3) * 1 + 1 * (y 0).val = win0_2.index t (0 : Fin 3) * 1 + 1 * (y 0).val
      omega
    | ⟨1, _⟩ =>
      show win0_1.index t (1 : Fin 3) * 512 + 1 * (y 1).val = win0_2.index t (1 : Fin 3) * 512 + 1 * (y 1).val
      omega
    | ⟨2, _⟩ =>
      show win0_1.index t (2 : Fin 3) * 1024 + 1 * ((y 2).val % 1024)
        = (win0_2.index t (2 : Fin 3) * 2048 + 1 * (y 2).val) % 1024
      omega
  unfold blockFn sideBySide
  rw [h0, h1, hp]

/-- An entry of the array is in point t's block when each coordinate is in the block's range on its axis. -/
theorem mem_blk (t : Fin cfg0.N) (i : S48x512x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v2).slice (win0_2.rect t)).set ↔ _
  rw [View.set_slice_whole, Rect.mem_set_unit]
  exact Iff.rfl

/-- Every entry of the array is in the block of the point numbered by its slice. -/
theorem cover (i : S48x512x2048.Idx) :
    ∃ t : Fin cfg0.N, (cfg0.win 2).flush t = true ∧ i ∈ ((cfg0.win 2).blk t).view.set := by
  have hi0 : (i 0).val < 48 := (i 0).isLt
  have hi1 : (i 1).val < 512 := (i 1).isLt
  have hi2 : (i 2).val < 2048 := (i 2).isLt
  obtain ⟨t, ht⟩ : ∃ t : Fin cfg0.N, t.val = (i 0).val :=
    ⟨⟨(i 0).val, by have := N_0; show (i 0).val < grid0.N; omega⟩, rfl⟩
  obtain ⟨-, -, -, -, -, -, c0, c1, c2⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 2048 ≤ (i 2).val ∧ (i 2).val < win0_2.index t (2 : Fin 3) * 2048 + 2048
    omega

/-- After the call the array is the side-by-side array of the flattened inputs. -/
theorem final (c : Dev nD) :
    (dats m 0 c).arrAt 2 cfg0.N = sideBySide (V m c main_v0) (V m c main_v1) :=
  (dats m 0 c).arrAt_eq_of_cover 2 _ (fun t _ => flushed_eq m c t) cover

/-- The call's first operand is the first argument reshaped to [48, 512, 1024]. -/
theorem V_flat0 (c : Dev nD) : (V m c main_v0 : S48x512x1024.Idx → EReal)
    = shapeCast S48x512x1024 (m ((c : Thread nD τ).loc main_arg0)) shapeCasts_S16x3x512x1024_S48x512x1024 := by
  show StableHlo.after hostOps0 (fun b => m (c, b)) (Proc.devRef .tc main_v0) = _
  after_results
  rfl

/-- The call's second operand is the second argument reshaped to [48, 512, 1024]. -/
theorem V_flat1 (c : Dev nD) : (V m c main_v1 : S48x512x1024.Idx → EReal)
    = shapeCast S48x512x1024 (m ((c : Thread nD τ).loc main_arg1)) shapeCasts_S16x3x512x1024_S48x512x1024 := by
  show StableHlo.after hostOps0 (fun b => m (c, b)) (Proc.devRef .tc main_v1) = _
  after_results
  rfl

end Cert.KernelIdeal.ArrayValue

end
-- ==== Proof.KernelRun.lean ====
/-
  The kernel program's run, read. After the call, the program's last line reshapes the [48, 512, 2048] array to the
  [16, 3, 1024, 1024] result. The array after the call is the side-by-side array of the arguments flattened to
  [48, 512, 1024], and reshaping that is the interleaved specification of the arguments. The two arguments end as they
  were launched.
-/
import proofs.«165841_j9732395893262_2_alg».proof.Proof.KernelArray

set_option maxRecDepth 16384

noncomputable section

namespace Cert.KernelIdeal.RunValue

open Cert.KernelIdeal Cert.KernelIdeal.Gen Cert.KernelIdeal.ArrayValue
open Idealize.ShloMosaic Idealize.ShloMosaic.TcCoe Idealize.SL.Sem Idealize.ShloMosaic.StableHlo
open Idealize.ShloMosaic.Pipeline (Dat)
open Cert.HaarSpec Cert.HaarRelayout

variable (m : (ℓ : Loc nD τ sig) → Buf (Elt Ideal) ℓ) (ρ : Dev nD → PrngReg)

/-- The result buffer after the program's last line is the interleaved specification of the arguments. -/
theorem tail_eq (c : Dev nD) :
    Pipeline.afterTail₀ cfgs (dats m) 0 (V0 m) [hostOps1] c main_v3
      = interleaved (m ((c : Thread nD τ).loc main_arg0)) (m ((c : Thread nD τ).loc main_arg1)) := by
  unfold Pipeline.afterTail₀
  show StableHlo.after hostOps1 _ (Proc.devRef .tc main_v3) = _
  after_results
  -- the last line reshapes what the call left in its output array
  have hw : Pipeline.withArrays (cfgs 0).spec c (V0 m c) (fun w => (dats m 0 c).arrAt w (cfgs 0).N)
      (Proc.devRef .tc main_v2) = (dats m 0 c).arrAt 2 cfg0.N :=
    Pipeline.withArrays_arr spec0 launch0.win.arr_inj c _ _ 2
  refine Eq.trans (b := shapeCast S16x3x1024x1024
    (Pipeline.withArrays (cfgs 0).spec c (V0 m c) (fun w => (dats m 0 c).arrAt w (cfgs 0).N)
      (Proc.devRef .tc main_v2)) shapeCasts_S48x512x2048_S16x3x1024x1024) rfl ?_
  rw [hw, final, V_flat0, V_flat1]
  exact reshape_sideBySide _ _ _ _

/-- Every weakly fair execution of the kernel program terminates with the result buffer at the interleaved
    specification of the arguments, and the arguments as launched. -/
theorem run : θ_run defs (onTc (τ := τ) (main (F := Ideal))) ⟨m, fun _ => 0, ρ⟩ fun r => ∀ c : Dev nD,
      r.2.mem ((c.tc : Thread nD τ).loc main_v3)
        = interleaved (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_eq m c),
        ((h c).2 main_arg0 (Pipeline.mem_restRefs_of main_arg0 (by decide) (by decide))).trans
          (W_main_arg0 m (dats m) c),
        ((h c).2 main_arg1 (Pipeline.mem_restRefs_of main_arg1 (by decide) (by decide))).trans
          (W_main_arg1 m (dats m) c)⟩)
    (run_main m ρ)

end Cert.KernelIdeal.RunValue

end
-- ==== Proof.RefValue.lean ====
/-
  The reference program computes the interleaved specification. Its last operation reshapes a [16, 3, 512, 2, 1024]
  array to [16, 3, 1024, 1024]: entry (b, c, r, w) of the result is entry (b, c, r / 2, r % 2, w) of the operand, the
  two having the same row-major position. That operand joins two [16, 3, 512, 1, 1024] arrays along axis 3, so its
  entry reads the first (the even combination) when r % 2 = 0 and the second (the odd combination) when r % 2 = 1,
  in both cases at (b, c, r / 2, 0, w), which the unit-axis broadcast reads back at (b, c, r / 2, w). The odd
  combination is spelt with minus-half added where the specification subtracts half: the one scalar law.
-/
import proofs.«165841_j9732395893262_2_alg».proof.Proof.Gen.ReferenceIdeal.Read
import proofs.«165841_j9732395893262_2_alg».proof.Proof.Interleave
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.HaarSpec

/-- The stacked array's entry the result's entry i reads: (b, c, r / 2, r % 2, w). -/
theorem idx_v15_eq (i : S16x3x1024x1024.Idx) :
    idx_main_v15 i = ix5 (i 0) (i 1) ⟨(i 2).val / 2, by have h : (i 2).val < 1024 := (i 2).isLt; omega⟩
      ⟨(i 2).val % 2, Nat.mod_lt _ (by decide)⟩ (i 3) := by
  have h0 : (i 0).val < 16 := (i 0).isLt
  have h1 : (i 1).val < 3 := (i 1).isLt
  have h2 : (i 2).val < 1024 := (i 2).isLt
  have h3 : (i 3).val < 1024 := (i 3).isLt
  funext a
  apply Fin.ext
  match a with
  | ⟨0, _⟩ => show ((((i 0).val * 3 + (i 1).val) * 1024 + (i 2).val) * 1024 + (i 3).val) / 3145728 = (i 0).val; omega
  | ⟨1, _⟩ => show ((((i 0).val * 3 + (i 1).val) * 1024 + (i 2).val) * 1024 + (i 3).val) / 1048576 % 3 = (i 1).val; omega
  | ⟨2, _⟩ => show ((((i 0).val * 3 + (i 1).val) * 1024 + (i 2).val) * 1024 + (i 3).val) / 2048 % 512 = (i 2).val / 2; omega
  | ⟨3, _⟩ => show ((((i 0).val * 3 + (i 1).val) * 1024 + (i 2).val) * 1024 + (i 3).val) / 1024 % 2 = (i 2).val % 2; omega
  | ⟨4, _⟩ => show ((((i 0).val * 3 + (i 1).val) * 1024 + (i 2).val) * 1024 + (i 3).val) % 1024 = (i 3).val; omega

/-- The even combination at an input index, as the reference spells it. -/
theorem v6_apply (x0 x1 : S16x3x512x1024.Idx → EReal) (q : S16x3x512x1024.Idx) :
    val_main_v6 (F := Ideal) x0 x1 q = half * (x0 q + x1 q) + half * (x0 q - x1 q) := rfl

/-- The odd combination at an input index, as the reference spells it: minus-half of the difference ADDED. -/
theorem v11_apply (x0 x1 : S16x3x512x1024.Idx → EReal) (q : S16x3x512x1024.Idx) :
    val_main_v11 (F := Ideal) x0 x1 q
      = half * (x0 q + x1 q) + Ideal.ofBits .f32 0xBF000000#32 * (x0 q - x1 q) := rfl

/-- The reference's result is the interleaved specification of its two arguments. -/
theorem ref_eq (x0 x1 : S16x3x512x1024.Idx → EReal) :
    val_main_v15 (F := Ideal) x0 x1 = interleaved x0 x1 := by
  funext i
  have h2 : (i 2).val < 1024 := (i 2).isLt
  rw [val_main_v15_apply, idx_v15_eq]
  unfold val_main_v14
  -- the entry of either joined array that is read, and the input entry behind it
  have hk : idx_main_v12 (ix5 (i 0) (i 1) ⟨(i 2).val / 2, by omega⟩ ⟨0, Nat.one_pos⟩ (i 3)) = srcIdx i := by
    funext a; apply Fin.ext
    match a with
    | ⟨0, _⟩ => rfl
    | ⟨1, _⟩ => rfl
    | ⟨2, _⟩ => rfl
    | ⟨3, _⟩ => rfl
  unfold interleaved
  rcases Nat.mod_two_eq_zero_or_one (i 2).val with hp | hp
  · -- an even row: the first joined array
    refine (concatenate_pair_apply_left (s₁ := S16x3x512x1x1024) (s₂ := S16x3x512x1x1024) (3 : Fin S16x3x512x2x1024.rank) _ _ _ _ rfl
      (ix5 (i 0) (i 1) ⟨(i 2).val / 2, by omega⟩ ⟨0, Nat.one_pos⟩ (i 3)) (fun b => ?_)).trans ?_
    · match b with
      | ⟨0, _⟩ => rfl
      | ⟨1, _⟩ => rfl
      | ⟨2, _⟩ => rfl
      | ⟨3, _⟩ => exact hp.symm
      | ⟨4, _⟩ => rfl
    · rw [val_main_v12_apply, hk, v6_apply, hp, rowPair_even]
  · -- an odd row: the second joined array
    refine (concatenate_pair_apply_right (s₁ := S16x3x512x1x1024) (s₂ := S16x3x512x1x1024) (3 : Fin S16x3x512x2x1024.rank) _ _ _ _ rfl rfl
      (ix5 (i 0) (i 1) ⟨(i 2).val / 2, by omega⟩ ⟨0, Nat.one_pos⟩ (i 3)) (fun b hb => ?_) ?_).trans ?_
    · match b with
      | ⟨0, _⟩ => rfl
      | ⟨1, _⟩ => rfl
      | ⟨2, _⟩ => rfl
      | ⟨3, _⟩ => exact absurd rfl hb
      | ⟨4, _⟩ => rfl
    · show 0 + 1 = (i 2).val % 2
      omega
    · have hk' : idx_main_v13 (ix5 (i 0) (i 1) ⟨(i 2).val / 2, by omega⟩ ⟨0, Nat.one_pos⟩ (i 3)) = srcIdx i := hk
      rw [val_main_v13_apply, hk', v11_apply, hp, rowPair_odd, sub_half_eq_add_neg_half]

end Cert.ReferenceIdeal.RefValue

end
-- ==== Proof.lean ====
/-
  The Haar row-interleaving kernel against its reference, on the extended reals. For inputs x and y of shape
  [16, 3, 512, 1024], with s = x + y and d = x - y, both programs return the [16, 3, 1024, 1024] array whose row 2h
  is (1/2) s + (1/2) d at row h and whose row 2h + 1 is (1/2) s - (1/2) d at row h.

  The kernel program flattens the inputs to [48, 512, 1024], fills a [48, 512, 2048] array one slice per grid point
  (the even combination in the first 1024 columns of a row, the odd combination in the last 1024) and reshapes it to
  the result: rows 2h and 2h + 1 of the result are the two halves of row h of that array. The reference forms the two
  combinations on whole arrays, stacks them along a new axis after the rows and reshapes. It spells the odd
  combination as (1/2) s + (-(1/2)) d; that this equals (1/2) s - (1/2) d holds for every extended real, so the
  inputs' finiteness is never used. Both runs end with the same function of the arguments, entry by entry.

  The idealization rewrote nothing, so that claim is trivial; the kernel programs' frames are their generated frame
  runs, and the reference's frame is its generated run with the result forgotten.
-/
import proofs.«165841_j9732395893262_2_alg».proof.Defs
import proofs.«165841_j9732395893262_2_alg».proof.Proof.Gen.Kernel
import proofs.«165841_j9732395893262_2_alg».proof.Proof.Gen.Kernel.Skeleton
import proofs.«165841_j9732395893262_2_alg».proof.Proof.Gen.Kernel.Launch
import proofs.«165841_j9732395893262_2_alg».proof.Proof.Gen.Kernel.Points
import proofs.«165841_j9732395893262_2_alg».proof.Proof.Gen.Kernel.Frame
import proofs.«165841_j9732395893262_2_alg».proof.Proof.Gen.KernelIdeal
import proofs.«165841_j9732395893262_2_alg».proof.Proof.Gen.KernelIdeal.Skeleton
import proofs.«165841_j9732395893262_2_alg».proof.Proof.Gen.KernelIdeal.Launch
import proofs.«165841_j9732395893262_2_alg».proof.Proof.Gen.KernelIdeal.Points
import proofs.«165841_j9732395893262_2_alg».proof.Proof.Gen.KernelIdeal.Frame
import proofs.«165841_j9732395893262_2_alg».proof.Proof.Gen.ReferenceIdeal
import proofs.«165841_j9732395893262_2_alg».proof.Proof.Gen.ReferenceIdeal.Run
import proofs.«165841_j9732395893262_2_alg».proof.Proof.Gen.ReferenceIdeal.Read
import proofs.«165841_j9732395893262_2_alg».proof.Proof.Gen.Pre_finite_inputs
import proofs.«165841_j9732395893262_2_alg».proof.Proof.KernelRun
import proofs.«165841_j9732395893262_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The idealized reference runs and keeps its arguments: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories agreeing on the arguments, both idealized programs end with the interleaved specification of the
    arguments in their result buffers. -/
theorem algebraic : Cert.algebraic_KernelIdeal_ReferenceIdeal := by
  intro m ρ m' ρ' _ hagree
  refine ⟨fun c => Cert.HaarSpec.interleaved
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.ReferenceIdeal.RefValue.ref_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
